-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x65536 : Shape := ⟨2, ![256, 65536]⟩
abbrev S_ : Shape := ⟨0, ![]⟩

class Facts : Prop where
  bcast_S_S256x65536 : S_.BroadcastsInDim S256x65536 (![] : Fin 0 → Fin S256x65536.rank)
  reducesTo_S256x65536_S_d0_1 : S256x65536.ReducesTo [0, 1] S_
  h_S_ : 0 < S_.numel

variable [Facts]

def fn {F : FTy → Type} [FloatOps F] (main_arg0 : FVec F S256x65536 .f32) (main_arg1 : FVec F S256x65536 .f32) : IVec S_ 1 :=
  let main_v0 : FVec F S256x65536 .f32 := Host.absf main_arg0
  let main_cst : FVec F S_ .f32 := constant S_ .f32 0x7F800000#32
  let main_v1 : FVec F S256x65536 .f32 := broadcastInDim S256x65536 ![] bcast_S_S256x65536 main_cst
  let main_v2 : IVec S256x65536 1 := cmpf .olt main_v0 main_v1
  let main_c : IVec S_ 1 := constantI S_ 1 1#1
  let main_v3 : IVec S_ 1 := (fun x v => Host.reduce IntOp.andi x v reducesTo_S256x65536_S_d0_1 h_S_) main_v2 main_c
  let main_v4 : FVec F S256x65536 .f32 := Host.absf main_arg1
  let main_cst_0 : FVec F S_ .f32 := constant S_ .f32 0x7F800000#32
  let main_v5 : FVec F S256x65536 .f32 := broadcastInDim S256x65536 ![] bcast_S_S256x65536 main_cst_0
  let main_v6 : IVec S256x65536 1 := cmpf .olt main_v4 main_v5
  let main_c_1 : IVec S_ 1 := constantI S_ 1 1#1
  let main_v7 : IVec S_ 1 := (fun x v => Host.reduce IntOp.andi x v reducesTo_S256x65536_S_d0_1 h_S_) main_v6 main_c_1
  let main_v8 : IVec S_ 1 := andi main_v3 main_v7
  main_v8
-- ==== Kernel.lean ====
abbrev S256x65536 : Shape := ⟨2, ![256, 65536]⟩
abbrev S256x6 : Shape := ⟨2, ![256, 6]⟩
abbrev S128x8192 : Shape := ⟨2, ![128, 8192]⟩
abbrev S128x6 : Shape := ⟨2, ![128, 6]⟩
abbrev S128 : Shape := ⟨1, ![128]⟩
abbrev S128x1 : Shape := ⟨2, ![128, 1]⟩
abbrev S256x1 : Shape := ⟨2, ![256, 1]⟩
abbrev S256 : Shape := ⟨1, ![256]⟩
abbrev S_ : Shape := ⟨0, ![]⟩
abbrev S1 : Shape := ⟨1, ![1]⟩

abbrev nBuf : Space → Nat
  | .hbm => 58
  | .vmem => 7
  | .smem => 0
  | _ => 0

abbrev bufTy : (tb : Table) → Fin (tcTables nBuf tb) → BufTy
  | .hbm, ⟨0, _⟩ => ⟨S256x65536, .f32⟩
  | .hbm, ⟨1, _⟩ => ⟨S256x65536, .f32⟩
  | .hbm, ⟨2, _⟩ => ⟨S256x6, .f32⟩
  | .hbm, ⟨3, _⟩ => ⟨S256x1, .f32⟩
  | .hbm, ⟨4, _⟩ => ⟨S256, .f32⟩
  | .hbm, ⟨5, _⟩ => ⟨S256x1, .f32⟩
  | .hbm, ⟨6, _⟩ => ⟨S256, .f32⟩
  | .hbm, ⟨7, _⟩ => ⟨S256x1, .f32⟩
  | .hbm, ⟨8, _⟩ => ⟨S256, .f32⟩
  | .hbm, ⟨9, _⟩ => ⟨S256x1, .f32⟩
  | .hbm, ⟨10, _⟩ => ⟨S256, .f32⟩
  | .hbm, ⟨11, _⟩ => ⟨S256x1, .f32⟩
  | .hbm, ⟨12, _⟩ => ⟨S256, .f32⟩
  | .hbm, ⟨13, _⟩ => ⟨S256x1, .f32⟩
  | .hbm, ⟨14, _⟩ => ⟨S256, .f32⟩
  | .hbm, ⟨15, _⟩ => ⟨S256, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S1, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x6, .f32⟩
  | .local _ .vmem, ⟨5, _⟩ => ⟨S128x6, .f32⟩
  | .local _ .vmem, ⟨6, _⟩ => ⟨S128x6, .f32⟩
  | _, _ => ⟨S256x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_4 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_cst_7 : Ref sig .tc := ⟨.hbm, 46, rfl⟩
abbrev main_v36 : Ref sig .tc := ⟨.hbm, 47, rfl⟩
abbrev main_cst_8 : Ref sig .tc := ⟨.hbm, 48, rfl⟩
abbrev main_cst_9 : Ref sig .tc := ⟨.hbm, 49, rfl⟩
abbrev main_v37 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_13 : BitVec 32 := 0#32
  let v30 : BitVec 1 := Scalar.cmpi .ne v29 c0_i32_13
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S128x6_S128x6_0_0 : ∀ a, (![0, 0] : Fin 2 → Nat) a + S128x6.size a ≤ S128x6.size a
  h_S128x6 : 0 < S128x6.numel
  shapeCasts_S128x6_S128x6 : S128x6.ShapeCasts S128x6
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  concatenates_S128x1_S128x1_S128x1_S128x1_S128x1_S128x1_S128x6_d1 : Shape.Concatenates [S128x1, S128x1, S128x1, S128x1, S128x1, S128x1] S128x6 1
  slices_S256x6_S256x1_0_0 : S256x6.Slices ![0, 0] S256x1
  shapeCasts_S256x1_S256 : S256x1.ShapeCasts S256
  slices_S256x6_S256x1_0_1 : S256x6.Slices ![0, 1] S256x1
  slices_S256x6_S256x1_0_2 : S256x6.Slices ![0, 2] S256x1
  slices_S256x6_S256x1_0_3 : S256x6.Slices ![0, 3] S256x1
  slices_S256x6_S256x1_0_4 : S256x6.Slices ![0, 4] S256x1
  slices_S256x6_S256x1_0_5 : S256x6.Slices ![0, 5] S256x1
  bcast_S_S256 : S_.BroadcastsInDim S256 (![] : Fin 0 → Fin S256.rank)
  reducesTo_S256_S_d0 : S256.ReducesTo [0] S_
  h_S_ : 0 < S_.numel
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S256x65536.size a
  hwx0_0 : ∀ i : grid0.Coords, EltTy.bits .f32 = 32 ∨ (Rect.block (s := S256x65536) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S256x65536.size a
  hwx0_1 : ∀ i : grid0.Coords, EltTy.bits .f32 = 32 ∨ (Rect.block (s := S256x65536) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x6.size a ≤ S256x6.size a
  hwx0_2 : ∀ i : grid0.Coords, EltTy.bits .f32 = 32 ∨ (Rect.block (s := S256x6) S128x6.size (cc0_transform_2 i) (hinb0_2 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x6.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x65536 : Shape := ⟨2, ![256, 65536]⟩
abbrev S_ : Shape := ⟨0, ![]⟩
abbrev S256 : Shape := ⟨1, ![256]⟩
abbrev S256x1 : Shape := ⟨2, ![256, 1]⟩
abbrev S1 : Shape := ⟨1, ![1]⟩

abbrev nBuf : Space → Nat
  | .hbm => 52
  | .vmem => 0
  | .smem => 0
  | _ => 0

abbrev bufTy : (tb : Table) → Fin (tcTables nBuf tb) → BufTy
  | .hbm, ⟨0, _⟩ => ⟨S256x65536, .f32⟩
  | .hbm, ⟨1, _⟩ => ⟨S256x65536, .f32⟩
  | .hbm, ⟨2, _⟩ => ⟨S256x65536, .f32⟩
  | .hbm, ⟨3, _⟩ => ⟨S256x65536, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x65536, .f32⟩
  | .hbm, ⟨15, _⟩ => ⟨S256x65536, .f32⟩
  | .hbm, ⟨16, _⟩ => ⟨S_, .f32⟩
  | .hbm, ⟨17, _⟩ => ⟨S256, .f32⟩
  | .hbm, ⟨18, _⟩ => ⟨S256x1, .f32⟩
  | .hbm, ⟨19, _⟩ => ⟨S_, .f32⟩
  | .hbm, ⟨20, _⟩ => ⟨S256x1, .f32⟩
  | .hbm, ⟨21, _⟩ => ⟨S256x1, .f32⟩
  | .hbm, ⟨22, _⟩ => ⟨S256x65536, .f32⟩
  | .hbm, ⟨23, _⟩ => ⟨S256x65536, .f32⟩
  | .hbm, ⟨24, _⟩ => ⟨S256x65536, .f32⟩
  | .hbm, ⟨25, _⟩ => ⟨S_, .f32⟩
  | .hbm, ⟨26, _⟩ => ⟨S256, .f32⟩
  | .hbm, ⟨27, _⟩ => ⟨S256x65536, .f32⟩
  | .hbm, ⟨28, _⟩ => ⟨S_, .f32⟩
  | .hbm, ⟨29, _⟩ => ⟨S256, .f32⟩
  | .hbm, ⟨30, _⟩ => ⟨S256x65536, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1, .f32⟩
  | _, _ => ⟨S256x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_9 : Ref sig .tc := ⟨.hbm, 39, rfl⟩
abbrev main_v27 : Ref sig .tc := ⟨.hbm, 40, rfl⟩
abbrev main_v28 : Ref sig .tc := ⟨.hbm, 41, rfl⟩
abbrev main_cst_10 : Ref sig .tc := ⟨.hbm, 42, rfl⟩
abbrev main_v29 : Ref sig .tc := ⟨.hbm, 43, rfl⟩
abbrev main_cst_11 : Ref sig .tc := ⟨.hbm, 44, rfl⟩
abbrev main_v30 : Ref sig .tc := ⟨.hbm, 45, rfl⟩
abbrev main_cst_12 : Ref sig .tc := ⟨.hbm, 46, rfl⟩
abbrev main_v31 : Ref sig .tc := ⟨.hbm, 47, rfl⟩
abbrev main_cst_13 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  reducesTo_S256x65536_S_d0_1 : S256x65536.ReducesTo [0, 1] S_
  h_S_ : 0 < S_.numel
  reducesTo_S256x65536_S256_d1 : S256x65536.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x65536_0_1 : S256x1.BroadcastsInDim S256x65536 (![0, 1] : Fin 2 → Fin S256x65536.rank)
  bcast_S_S256 : S_.BroadcastsInDim S256 (![] : Fin 0 → Fin S256.rank)
  reducesTo_S256_S_d0 : S256.ReducesTo [0] S_
  shapeCasts_S_S1 : S_.ShapeCasts S1

variable [Facts₀]

class Facts : Prop extends Facts₀ where

variable [Facts]
-- ==== Proof.KernelCases.lean ====
/-
  What one grid point of the row-statistics kernel leaves behind, case by case.

  The body keeps a [128, 6] accumulator in scratch. At a point it loads the y_true block `x` and the y_pred block `y`
  (both [128, 8192]), forms the six lane sums of the block — ∑x, ∑y, ∑x·y, ∑x·x, ∑y·y, ∑(x−y)² — side by side as a
  [128, 6] tile, and stores accumulator + tile back. At the first point of a row block (column coordinate 0) the
  accumulator is first set to zero, so the point leaves 0 + tile; elsewhere it leaves (what the point before left) +
  tile; and at the last point of a row block (column coordinate 7) the new accumulator is also copied to the output
  block. Each of these is the one payload `k0_pay2` of the two input blocks and the accumulator the point starts from.
-/
import proofs.«153665_j63720134803972_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Cases

open Cert.KernelIdeal Cert.KernelIdeal.Gen

variable {F : FTy → Type} [FloatOps F]

theorem hz : (![0, 0] : Fin 2 → Nat) = fun _ => 0 := funext fun a => by fin_cases a <;> rfl

/-- First point of a row block: the accumulator is zeroed, then the block's tile is added to it. -/
theorem scratch_first (c : Dev nD) (i : grid0.Coords) (a2 : Memref sig .tc .vmem S128x8192 .f32) (h2 : a2.IsWhole)
    (a3 : Memref sig .tc .vmem S128x8192 .f32) (h3 : a3.IsWhole) (a4 : Memref sig .tc .vmem S128x6 .f32) (h4 : a4.IsWhole)
    (a5 : Memref sig .tc .vmem S128x6 .f32) (h5 : a5.IsWhole) (hc0 : cond0_0 i) (hc1 : ¬cond0_1 i)
    (x0 x1 : Vec F S128x8192 .f32) :
    sout0_A_0 c i a2 h2 a3 h3 a4 h4 a5 h5 hc0 hc1 x0 x1 = k0_pay2 x1 x0 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S128x6) hz, View.readCov_unit_zero (S := S128x6) _ hz]
  simp only [View.readAt_eq_ld, h2.read_unread, h3.read_unread, h5.read_unread, View.ld_unit_zero (S := S128x8192) hz,
    View.ld_unit_zero (S := S128x6) hz]

/-- A middle point: the block's tile is added to what the point before left. -/
theorem scratch_middle (c : Dev nD) (i : grid0.Coords) (a2 : Memref sig .tc .vmem S128x8192 .f32) (h2 : a2.IsWhole)
    (a3 : Memref sig .tc .vmem S128x8192 .f32) (h3 : a3.IsWhole) (a4 : Memref sig .tc .vmem S128x6 .f32) (h4 : a4.IsWhole)
    (a5 : Memref sig .tc .vmem S128x6 .f32) (h5 : a5.IsWhole) (hc0 : ¬cond0_0 i) (hc1 : ¬cond0_1 i)
    (x0 x1 : Vec F S128x8192 .f32) (xs0 : Vec F S128x6 .f32) :
    sout0_B_0 c i a2 h2 a3 h3 a4 h4 a5 h5 hc0 hc1 x0 x1 xs0 = k0_pay2 x1 x0 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S128x8192) hz,
    View.ld_unit_zero (S := S128x6) hz]

/-- Last point of a row block: the accumulator as at a middle point, -/
theorem scratch_last (c : Dev nD) (i : grid0.Coords) (a2 : Memref sig .tc .vmem S128x8192 .f32) (h2 : a2.IsWhole)
    (a3 : Memref sig .tc .vmem S128x8192 .f32) (h3 : a3.IsWhole) (a4 : Memref sig .tc .vmem S128x6 .f32) (h4 : a4.IsWhole)
    (a5 : Memref sig .tc .vmem S128x6 .f32) (h5 : a5.IsWhole) (hc0 : ¬cond0_0 i) (hc1 : cond0_1 i)
    (x0 x1 : Vec F S128x8192 .f32) (xs0 : Vec F S128x6 .f32) :
    sout0_C_0 c i a2 h2 a3 h3 a4 h4 a5 h5 hc0 hc1 x0 x1 xs0 = k0_pay2 x1 x0 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S128x8192) hz,
    View.ld_unit_zero (S := S128x6) hz]

/-- and the output block holds a copy of it. -/
theorem out_last (c : Dev nD) (i : grid0.Coords) (a2 : Memref sig .tc .vmem S128x8192 .f32) (h2 : a2.IsWhole)
    (a3 : Memref sig .tc .vmem S128x8192 .f32) (h3 : a3.IsWhole) (a4 : Memref sig .tc .vmem S128x6 .f32) (h4 : a4.IsWhole)
    (a5 : Memref sig .tc .vmem S128x6 .f32) (h5 : a5.IsWhole) (hc0 : ¬cond0_0 i) (hc1 : cond0_1 i)
    (x0 x1 : Vec F S128x8192 .f32) (xs0 : Vec F S128x6 .f32) :
    out0_C_2 c i a2 h2 a3 h3 a4 h4 a5 h5 hc0 hc1 x0 x1 xs0 = k0_pay2 x1 x0 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S128x6) _ hz]
  simp only [View.readAt_eq_ld, h2.read_unread, h3.read_unread, h5.read_unread, View.ld_unit_zero (S := S128x8192) hz,
    View.ld_unit_zero (S := S128x6) hz]

end Cert.KernelIdeal.Cases

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.RowTile.lean ====
import proofs.«153665_j63720134803972_2_alg».proof.Proof.Gen.KernelIdeal.Skeleton
import proofs.«153665_j63720134803972_2_alg».proof.Proof.LibColumn
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Tile

open Cert.KernelIdeal Cert.KernelIdeal.Gen

/-- The six statistics of a pair `(x, y)`: x, y, x·y, x·x, y·y, (x − y)². -/
def stat (j : Fin 6) (x y : EReal) : EReal :=
  match j with
  | ⟨0, _⟩ => x
  | ⟨1, _⟩ => y
  | ⟨2, _⟩ => x * y
  | ⟨3, _⟩ => x * x
  | ⟨4, _⟩ => y * y
  | ⟨5, _⟩ => (x - y) * (x - y)
  | ⟨_ + 6, h⟩ => absurd h (by omega)

/-- A lane sum of a [128, 8192] block, read at row `p`: the sum of the row's 8192 entries. -/
theorem laneSum (src : FVec Ideal S128x8192 .f32) (h : S128x8192.Reduces [1] S128) (hφ : FKind.Formats .f32)
    (hacc : (0x00000000#32 : BitVec FTy.f32.bits) = FKind.add.neutral .f32 hφ) (p : Fin 128) :
    multiReduction .add [1] S128 src 0x00000000#32 h hφ hacc (ix1 p) = ∑ k : Fin 8192, src (ix2 p k) := by
  refine (Ideal.multiReduction_add_single src 0x00000000#32 h hφ hacc (ix1 p)).trans ?_
  exact Finset.sum_congr rfl fun k _ => congrArg src (funext fun a => Fin.ext (by
    match a with
    | ⟨0, _⟩ => rfl
    | ⟨1, _⟩ => rfl))

/-- A lane sum kept as a [128, 1] column, read at `(p, 0)`. -/
theorem laneSumCol (src : FVec Ideal S128x8192 .f32) (h : S128x8192.Reduces [1] S128) (hφ : FKind.Formats .f32)
    (hacc : (0x00000000#32 : BitVec FTy.f32.bits) = FKind.add.neutral .f32 hφ) (hc : S128.ShapeCasts S128x1) (p : Fin 128) :
    shapeCast S128x1 (multiReduction .add [1] S128 src 0x00000000#32 h hφ hacc) hc (ix2 p (0 : Fin 1))
      = ∑ k : Fin 8192, src (ix2 p k) :=
  (Cert.Lib.Column.col_apply _ hc p).trans (laneSum src h hφ hacc p)

/-- Six [128, 1] columns side by side, read at `(p, j)`: column `j` at `(p, 0)`. -/
theorem sixColumns {α : Type} (c0 c1 c2 c3 c4 c5 : S128x1.Idx → α)
    (h : Shape.Concatenates [S128x1, S128x1, S128x1, S128x1, S128x1, S128x1] S128x6 1) (p : Fin 128) (j : Fin 6) :
    concatenate S128x6 1 [⟨S128x1, c0⟩, ⟨S128x1, c1⟩, ⟨S128x1, c2⟩, ⟨S128x1, c3⟩, ⟨S128x1, c4⟩, ⟨S128x1, c5⟩] h (ix2 p j)
      = (![c0, c1, c2, c3, c4, c5] j) (ix2 p (0 : Fin 1)) := by
  have hi : ∀ b : Fin S128x1.rank, b.cast (rfl : S128x1.rank = S128x6.rank) ≠ (1 : Fin S128x6.rank) →
      ((ix2 p (0 : Fin 1) : S128x1.Idx) b).val = ((ix2 p j : S128x6.Idx) (b.cast rfl)).val := fun b hb => by
    match b with
    | ⟨0, _⟩ => rfl
    | ⟨1, _⟩ => exact absurd rfl hb
  match j with
  | ⟨0, _⟩ => exact concatenate_apply_piece 1 [⟨S128x1, c0⟩, ⟨S128x1, c1⟩, ⟨S128x1, c2⟩, ⟨S128x1, c3⟩, ⟨S128x1, c4⟩, ⟨S128x1, c5⟩] h (ix2 p _) 0 (by simp) S128x1 c0 rfl rfl 0 rfl (ix2 p 0) hi rfl
  | ⟨1, _⟩ => exact concatenate_apply_piece 1 [⟨S128x1, c0⟩, ⟨S128x1, c1⟩, ⟨S128x1, c2⟩, ⟨S128x1, c3⟩, ⟨S128x1, c4⟩, ⟨S128x1, c5⟩] h (ix2 p _) 1 (by simp) S128x1 c1 rfl rfl 1 rfl (ix2 p 0) hi rfl
  | ⟨2, _⟩ => exact concatenate_apply_piece 1 [⟨S128x1, c0⟩, ⟨S128x1, c1⟩, ⟨S128x1, c2⟩, ⟨S128x1, c3⟩, ⟨S128x1, c4⟩, ⟨S128x1, c5⟩] h (ix2 p _) 2 (by simp) S128x1 c2 rfl rfl 2 rfl (ix2 p 0) hi rfl
  | ⟨3, _⟩ => exact concatenate_apply_piece 1 [⟨S128x1, c0⟩, ⟨S128x1, c1⟩, ⟨S128x1, c2⟩, ⟨S128x1, c3⟩, ⟨S128x1, c4⟩, ⟨S128x1, c5⟩] h (ix2 p _) 3 (by simp) S128x1 c3 rfl rfl 3 rfl (ix2 p 0) hi rfl
  | ⟨4, _⟩ => exact concatenate_apply_piece 1 [⟨S128x1, c0⟩, ⟨S128x1, c1⟩, ⟨S128x1, c2⟩, ⟨S128x1, c3⟩, ⟨S128x1, c4⟩, ⟨S128x1, c5⟩] h (ix2 p _) 4 (by simp) S128x1 c4 rfl rfl 4 rfl (ix2 p 0) hi rfl
  | ⟨5, _⟩ => exact concatenate_apply_piece 1 [⟨S128x1, c0⟩, ⟨S128x1, c1⟩, ⟨S128x1, c2⟩, ⟨S128x1, c3⟩, ⟨S128x1, c4⟩, ⟨S128x1, c5⟩] h (ix2 p _) 5 (by simp) S128x1 c5 rfl rfl 5 rfl (ix2 p 0) hi rfl

/-- What a point stores: the accumulator it starts from plus, in column `j` of row `p`, the sum over the
    block's 8192 lanes of statistic `j` of the pair (y_true, y_pred) at `(p, k)`. -/
theorem tile_apply (x y : Vec Ideal S128x8192 .f32) (acc : Vec Ideal S128x6 .f32) (p : Fin 128) (j : Fin 6) :
    k0_pay2 (F := Ideal) x y acc (ix2 p j) = acc (ix2 p j) + ∑ k : Fin 8192, stat j (x (ix2 p k)) (y (ix2 p k)) := by
  unfold k0_pay2
  refine (congrFun (shapeCast_self _ _) (ix2 p j)).trans ?_
  refine congrArg (acc (ix2 p j) + ·) ?_
  match j with
  | ⟨0, _⟩ => exact (sixColumns _ _ _ _ _ _ _ p ⟨0, _⟩).trans (laneSumCol x _ (.inl rfl) rfl _ p)
  | ⟨1, _⟩ => exact (sixColumns _ _ _ _ _ _ _ p ⟨1, _⟩).trans (laneSumCol y _ (.inl rfl) rfl _ p)
  | ⟨2, _⟩ => exact (sixColumns _ _ _ _ _ _ _ p ⟨2, _⟩).trans (laneSumCol (mulf x y) _ (.inl rfl) rfl _ p)
  | ⟨3, _⟩ => exact (sixColumns _ _ _ _ _ _ _ p ⟨3, _⟩).trans (laneSumCol (mulf x x) _ (.inl rfl) rfl _ p)
  | ⟨4, _⟩ => exact (sixColumns _ _ _ _ _ _ _ p ⟨4, _⟩).trans (laneSumCol (mulf y y) _ (.inl rfl) rfl _ p)
  | ⟨5, _⟩ => exact (sixColumns _ _ _ _ _ _ _ p ⟨5, _⟩).trans (laneSumCol (mulf (subf x y) (subf x y)) _ (.inl rfl) rfl _ p)

end Cert.KernelIdeal.Tile

end
-- ==== Proof.RowSums.lean ====
/-
  The statistics table the kernel's region leaves in its [256, 6] result array.

  The grid is 2 row blocks × 8 column blocks, walked row block by row block. Point `t` reads rows
  128·(t / 8) … +127 and columns 8192·(t % 8) … +8191 of both arguments. Within a row block the scratch accumulator
  after the point with column coordinate `l` holds, at (p, j), the sum of statistic `j` of the pairs of row
  128·(t / 8) + p over the first 8192·(l + 1) columns: the first point starts from zero and each later point adds its
  own 8192 columns to what the point before left (a sum over an initial segment of the columns, extended by one
  block). After the last point of the row block that is the sum over all 65536 columns, and it is what the point writes
  back as rows 128·(t / 8) … +127 of the result. The two write-backs cover the 256 rows.
-/
import proofs.«153665_j63720134803972_2_alg».proof.Proof.KernelCases
import proofs.«153665_j63720134803972_2_alg».proof.Proof.RowTile
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Sums

open Cert.KernelIdeal Cert.KernelIdeal.Gen Cert.KernelIdeal.Tile Cert.KernelIdeal.Cases

variable (m : (ℓ : Loc nD τ sig) → Buf (Elt Ideal) ℓ) (ρ : Dev nD → PrngReg)

/-- An entry of a [256, 65536] array at natural coordinates (taken modulo the extents, so that it is total). -/
def entry (a : Vec Ideal S256x65536 .f32) (row col : ℕ) : EReal :=
  a (ix2 (⟨row % 256, Nat.mod_lt _ (by norm_num)⟩ : Fin 256) (⟨col % 65536, Nat.mod_lt _ (by norm_num)⟩ : Fin 65536))

/-- Statistic `j` of the pair (y_true, y_pred) at (row, col). -/
def term (c : Dev nD) (j : Fin 6) (row col : ℕ) : EReal :=
  stat j (entry (m ((c : Thread nD τ).loc main_arg1)) row col) (entry (m ((c : Thread nD τ).loc main_arg0)) row col)

/-- The printed index maps over the grid: the inputs' blocks are (t / 8, t % 8), the output's (t / 8, 0). -/
theorem idx_facts : ∀ t : Fin cfg0.N, win0_0.index t (0 : Fin 2) = t.val / 8 ∧ win0_0.index t (1 : Fin 2) = t.val % 8
    ∧ win0_1.index t (0 : Fin 2) = t.val / 8 ∧ win0_1.index t (1 : Fin 2) = t.val % 8
    ∧ win0_2.index t (0 : Fin 2) = t.val / 8 ∧ win0_2.index t (1 : Fin 2) = 0 :=
  (by decide +kernel : ∀ t : Fin grid0.N, _)

/-- The y_pred block at point `t`, read at (p, k). -/
theorem pred_block (c : Dev nD) (t : Fin cfg0.N) (p : Fin 128) (k : Fin 8192) :
    (iblk m c 0 t : Vec Ideal S128x8192 .f32) (ix2 p k)
      = entry (m ((c : Thread nD τ).loc main_arg0)) (128 * (t.val / 8) + p.val) (8192 * (t.val % 8) + k.val) := by
  obtain ⟨e0, e1, -, -, -, -⟩ := idx_facts t
  have hN : t.val < 16 := lt_of_lt_of_eq t.isLt N_0
  unfold iblk entry
  rw [View.read_apply]
  show V m c main_arg0 _ = m ((c : Thread nD τ).loc main_arg0) _
  rw [V_main_arg0]
  refine congrArg _ (funext fun a => Fin.ext ?_)
  match a with
  | ⟨0, _⟩ =>
    show win0_0.index t (0 : Fin 2) * 128 + 1 * p.val = (128 * (t.val / 8) + p.val) % 256
    rw [e0]; have := p.isLt; omega
  | ⟨1, _⟩ =>
    show win0_0.index t (1 : Fin 2) * 8192 + 1 * k.val = (8192 * (t.val % 8) + k.val) % 65536
    rw [e1]; have := k.isLt; omega

/-- The y_true block at point `t`, read at (p, k). -/
theorem true_block (c : Dev nD) (t : Fin cfg0.N) (p : Fin 128) (k : Fin 8192) :
    (iblk m c 1 t : Vec Ideal S128x8192 .f32) (ix2 p k)
      = entry (m ((c : Thread nD τ).loc main_arg1)) (128 * (t.val / 8) + p.val) (8192 * (t.val % 8) + k.val) := by
  obtain ⟨-, -, e0, e1, -, -⟩ := idx_facts t
  have hN : t.val < 16 := lt_of_lt_of_eq t.isLt N_0
  unfold iblk entry
  rw [View.read_apply]
  show V m c main_arg1 _ = m ((c : Thread nD τ).loc main_arg1) _
  rw [V_main_arg1]
  refine congrArg _ (funext fun a => Fin.ext ?_)
  match a with
  | ⟨0, _⟩ =>
    show win0_1.index t (0 : Fin 2) * 128 + 1 * p.val = (128 * (t.val / 8) + p.val) % 256
    rw [e0]; have := p.isLt; omega
  | ⟨1, _⟩ =>
    show win0_1.index t (1 : Fin 2) * 8192 + 1 * k.val = (8192 * (t.val % 8) + k.val) % 65536
    rw [e1]; have := k.isLt; omega

/-- What point `t` stores from an accumulator `acc`: `acc` plus the point's 8192 columns of each statistic. -/
theorem point_adds (c : Dev nD) (t : Fin cfg0.N) (acc : Vec Ideal S128x6 .f32) (p : Fin 128) (j : Fin 6) :
    k0_pay2 (F := Ideal) (iblk m c 1 t) (iblk m c 0 t) acc (ix2 p j)
      = acc (ix2 p j) + ∑ k ∈ Finset.range 8192, term m c j (128 * (t.val / 8) + p.val) (8192 * (t.val % 8) + k) := by
  refine (tile_apply (iblk m c 1 t) (iblk m c 0 t) acc p j).trans ?_
  refine congrArg (acc (ix2 p j) + ·) ?_
  rw [← Fin.sum_univ_eq_sum_range (fun k => term m c j (128 * (t.val / 8) + p.val) (8192 * (t.val % 8) + k)) 8192]
  exact Finset.sum_congr rfl fun k _ => congrArg₂ (stat j) (true_block m c t p k) (pred_block m c t p k)

/-- The zero block the first point of a row block stores. -/
theorem zero_block (p : Fin 128) (j : Fin 6) : k0_pay1 (F := Ideal) (ix2 p j) = 0 := by
  unfold k0_pay1
  refine (congrFun (shapeCast_self _ _) (ix2 p j)).trans ?_
  exact Ideal.ofBits_zero_f32

/-- The accumulator after point `n`: at (p, j) the sum of statistic `j` over the first 8192·(n % 8 + 1) columns of row
    128·(n / 8) + p. By induction on the point. -/
theorem scratch_eq (c : Dev nD) : ∀ (n : ℕ) (hn : n < cfg0.N) (p : Fin 128) (j : Fin 6),
    ((outsAt0 m c n hn).2 : Vec Ideal S128x6 .f32) (ix2 p j)
      = ∑ col ∈ Finset.range (8192 * (n % 8 + 1)), term m c j (128 * (n / 8) + p.val) col := by
  intro n
  induction n with
  | zero =>
    intro hn p j
    have e := outsAt0_A m c ⟨0, hn⟩ (Nat.zero_mod _) (by show ¬(0 % 8 = 7); decide)
    rw [show outsAt0 m c 0 hn = outsAt0 m c (⟨0, hn⟩ : Fin cfg0.N).val (⟨0, hn⟩ : Fin cfg0.N).isLt from rfl, e]
    dsimp only
    rw [scratch_first]
    refine (point_adds m c ⟨0, hn⟩ _ p j).trans ?_
    rw [zero_block, zero_add]
    simp
  | succ n ih =>
    intro hn p j
    have hN : n + 1 < 16 := lt_of_lt_of_eq hn N_0
    by_cases h0 : (n + 1) % 8 = 0
    · have h1 : ¬(n + 1) % 8 = 7 := by omega
      have e := outsAt0_A m c ⟨n + 1, hn⟩ h0 h1
      rw [show outsAt0 m c (n + 1) hn = outsAt0 m c (⟨n + 1, hn⟩ : Fin cfg0.N).val (⟨n + 1, hn⟩ : Fin cfg0.N).isLt from rfl, e]
      dsimp only
      rw [scratch_first]
      refine (point_adds m c ⟨n + 1, hn⟩ _ p j).trans ?_
      rw [zero_block, zero_add]
      show ∑ k ∈ Finset.range 8192, term m c j (128 * ((n + 1) / 8) + p.val) (8192 * ((n + 1) % 8) + k) = _
      rw [h0]
      simp
    · have key : ((outsAt0 m c (n + 1) hn).2 : Vec Ideal S128x6 .f32)
          = k0_pay2 (F := Ideal) (iblk m c 1 ⟨n + 1, hn⟩) (iblk m c 0 ⟨n + 1, hn⟩) (outsAt0 m c n (Nat.lt_of_succ_lt hn)).2 := by
        by_cases h1 : (n + 1) % 8 = 7
        · have e := outsAt0_C m c ⟨n + 1, hn⟩ h0 h1
          rw [show outsAt0 m c (n + 1) hn = outsAt0 m c (⟨n + 1, hn⟩ : Fin cfg0.N).val (⟨n + 1, hn⟩ : Fin cfg0.N).isLt from rfl, e]
          dsimp only
          rw [scratch_last]
          rfl
        · have e := outsAt0_B m c ⟨n + 1, hn⟩ h0 h1
          rw [show outsAt0 m c (n + 1) hn = outsAt0 m c (⟨n + 1, hn⟩ : Fin cfg0.N).val (⟨n + 1, hn⟩ : Fin cfg0.N).isLt from rfl, e]
          dsimp only
          rw [scratch_middle]
          rfl
      rw [key]
      refine (point_adds m c ⟨n + 1, hn⟩ _ p j).trans ?_
      rw [ih (Nat.lt_of_succ_lt hn) p j]
      show _ + ∑ k ∈ Finset.range 8192, term m c j (128 * ((n + 1) / 8) + p.val) (8192 * ((n + 1) % 8) + k) = _
      have e1 : n / 8 = (n + 1) / 8 := by omega
      have e2 : n % 8 + 1 = (n + 1) % 8 := by omega
      rw [e1, e2, show 8192 * ((n + 1) % 8 + 1) = 8192 * ((n + 1) % 8) + 8192 by ring, Finset.sum_range_add]

/-- At the last point of a row block the output block is a copy of the accumulator. -/
theorem out_eq_scratch (c : Dev nD) (t : Fin cfg0.N) (h7 : t.val % 8 = 7) :
    ((outsAt0 m c t.val t.isLt).1 : Vec Ideal S128x6 .f32) = (outsAt0 m c t.val t.isLt).2 := by
  have h0 : ¬t.val % 8 = 0 := by omega
  rw [outsAt0_C m c t h0 h7]
  dsimp only
  rw [out_last, scratch_last]

/-- The statistics table: row `r`, column `j` holds the sum over the row's 65536 pairs of statistic `j`. -/
def table (c : Dev nD) : Vec Ideal S256x6 .f32 := fun i =>
  ∑ col ∈ Finset.range 65536, term m c (i 1) (i 0).val col

/-- An index of the result is in point `t`'s block iff each coordinate is in the block's range on its axis. -/
theorem mem_blk (t : Fin cfg0.N) (i : S256x6.Idx) :
    i ∈ ((cfg0.win 2).blk t).view.set ↔ ∀ a : Fin 2, win0_2.index t a * S128x6.size a ≤ (i a).val ∧ (i a).val < win0_2.index t a * S128x6.size a + S128x6.size a := by
  show i ∈ ((View.whole main_v0).slice (win0_2.rect t)).set ↔ _
  rw [View.set_slice_whole, Rect.mem_set_unit]
  exact Iff.rfl

/-- What a write-back writes is its block of the table. -/
theorem flushed_eq (c : Dev nD) (t : Fin cfg0.N) (hf : (cfg0.win 2).flush t = true) :
    (dats m 0 c).flushed 2 t = ((cfg0.win 2).blk t).view.read (Elt Ideal) (table m c) := by
  have h7 : t.val % 8 = 7 := (flush0_2 t).mp hf
  have hN : t.val < 16 := lt_of_lt_of_eq t.isLt N_0
  obtain ⟨-, -, -, -, e4, e5⟩ := idx_facts t
  show (cfg0.win 2).cut (grid0.coords t) ((dats m 0 c).after 2 t) = _
  rw [after0_2, out_eq_scratch m c t h7]
  funext y
  rw [View.read_apply]
  have hy : (cfg0.win 2).cut (grid0.coords t) ((outsAt0 m c t.val t.isLt).2 : Vec Ideal S128x6 .f32) y
      = ((outsAt0 m c t.val t.isLt).2 : Vec Ideal S128x6 .f32)
          (ix2 (⟨(y 0).val, (y 0).isLt⟩ : Fin 128) (⟨(y 1).val, (y 1).isLt⟩ : Fin 6)) :=
    congrArg _ (funext fun a => Fin.ext (by
      match a with
      | ⟨0, _⟩ => rfl
      | ⟨1, _⟩ => rfl))
  rw [hy, scratch_eq m c t.val t.isLt _ _, h7]
  unfold table
  have hr : ((((cfg0.win 2).blk t).view.emb y) 0).val = 128 * (t.val / 8) + (y 0).val := by
    show win0_2.index t (0 : Fin 2) * 128 + 1 * (y 0).val = _
    rw [e4]; omega
  have hc : (((cfg0.win 2).blk t).view.emb y) 1 = (⟨(y 1).val, (y 1).isLt⟩ : Fin 6) := Fin.ext (by
    show win0_2.index t (1 : Fin 2) * 6 + 1 * (y 1).val = (y 1).val
    rw [e5]; omega)
  rw [hr, hc, show 8192 * (7 + 1) = 65536 from rfl, cast_eq]

/-- The two write-backs cover the result array. -/
theorem cover (i : S256x6.Idx) : ∃ t : Fin cfg0.N, (cfg0.win 2).flush t = true ∧ i ∈ ((cfg0.win 2).blk t).view.set := by
  have hi0 : (i 0).val < 256 := (i 0).isLt
  have hi1 : (i 1).val < 6 := (i 1).isLt
  have hN : cfg0.N = 16 := N_0
  have ht : 8 * ((i 0).val / 128) + 7 < cfg0.N := by rw [hN]; omega
  refine ⟨⟨8 * ((i 0).val / 128) + 7, ht⟩, (flush0_2 _).mpr (by show (8 * ((i 0).val / 128) + 7) % 8 = 7; omega), ?_⟩
  rw [mem_blk]
  obtain ⟨-, -, -, -, e4, e5⟩ := idx_facts ⟨8 * ((i 0).val / 128) + 7, ht⟩
  intro a
  match a with
  | ⟨0, _⟩ =>
    show win0_2.index ⟨8 * ((i 0).val / 128) + 7, ht⟩ (0 : Fin 2) * 128 ≤ (i 0).val
      ∧ (i 0).val < win0_2.index ⟨8 * ((i 0).val / 128) + 7, ht⟩ (0 : Fin 2) * 128 + 128
    rw [e4]
    show (8 * ((i 0).val / 128) + 7) / 8 * 128 ≤ (i 0).val ∧ (i 0).val < (8 * ((i 0).val / 128) + 7) / 8 * 128 + 128
    omega
  | ⟨1, _⟩ =>
    show win0_2.index ⟨8 * ((i 0).val / 128) + 7, ht⟩ (1 : Fin 2) * 6 ≤ (i 1).val
      ∧ (i 1).val < win0_2.index ⟨8 * ((i 0).val / 128) + 7, ht⟩ (1 : Fin 2) * 6 + 6
    rw [e5]; omega

/-- The result array after the region is the table. -/
theorem final (c : Dev nD) : (dats m 0 c).arrAt 2 cfg0.N = table m c :=
  (dats m 0 c).arrAt_eq_of_cover 2 (table m c) (flushed_eq m c) cover

end Cert.KernelIdeal.Sums

end
-- ==== Proof.KernelTail.lean ====
/-
  The host lines after the region: the loss as one function of the [256, 6] statistics table.

  From the table's six columns sx, sy, sxy, sxx, syy, sdd (one entry per row) and n = 65536 the host forms
      r_num = sxy − sx·sy / n,   var_x = sxx − sx·sx / n,   var_y = syy − sy·sy / n,
      r     = r_num / max(√(max(var_x · var_y, 0)), ε),
      loss  = 0.7 · (∑ sdd) / (256 · n)  +  0.3 · (∑ (1 − r)) / 256,
  returned as a one-element vector. The region's result array is the table (RowSums), so @main's result is this
  function of it.
-/
import proofs.«153665_j63720134803972_2_alg».proof.Proof.RowSums
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.KernelIdeal.Sums

/-- Column `k` of a [256, 6] table as a vector of 256 (a slice [0:256, k:k+1], reshaped). -/
def colOf (S : Vec Ideal S256x6 .f32) (off : Fin 2 → Nat) (h : S256x6.Slices off S256x1) : Vec Ideal S256 .f32 :=
  shapeCast S256 (extractStridedSlice S256x1 off S h) shapeCasts_S256x1_S256

/-- A scalar word repeated 256 times. -/
def splat (w : BitVec 32) : Vec Ideal S256 .f32 :=
  broadcastInDim S256 ![] bcast_S_S256 (constant (F := Ideal) S_ .f32 w)

/-- The loss as the host lines compute it from the statistics table. -/
def lossOfTable (S : Vec Ideal S256x6 .f32) : Vec Ideal S1 .f32 :=
  let sx := colOf S ![0, 0] slices_S256x6_S256x1_0_0
  let sy := colOf S ![0, 1] slices_S256x6_S256x1_0_1
  let sxy := colOf S ![0, 2] slices_S256x6_S256x1_0_2
  let sxx := colOf S ![0, 3] slices_S256x6_S256x1_0_3
  let syy := colOf S ![0, 4] slices_S256x6_S256x1_0_4
  let sdd := colOf S ![0, 5] slices_S256x6_S256x1_0_5
  let n := splat 0x47800000#32
  let rnum := subf sxy (Host.divf (F := Ideal) (mulf sx sy) n)
  let vx := subf sxx (Host.divf (F := Ideal) (mulf sx sx) n)
  let vy := subf syy (Host.divf (F := Ideal) (mulf sy sy) n)
  let den := maximumf (Host.sqrt (F := Ideal) (maximumf (mulf vx vy) (splat 0x00000000#32))) (splat 0x322BCC77#32)
  let r := Host.divf (F := Ideal) rnum den
  let corr := Host.divf (F := Ideal)
    (Host.reduceAdd (F := Ideal) (subf (splat 0x3F800000#32) r) (constant (F := Ideal) S_ .f32 0x00000000#32) reducesTo_S256_S_d0 h_S_)
    (constant (F := Ideal) S_ .f32 0x43800000#32)
  let mse := Host.divf (F := Ideal)
    (Host.reduceAdd (F := Ideal) sdd (constant (F := Ideal) S_ .f32 0x00000000#32) reducesTo_S256_S_d0 h_S_)
    (mulf (constant (F := Ideal) S_ .f32 0x43800000#32) (constant (F := Ideal) S_ .f32 0x47800000#32))
  shapeCast S1 (addf (mulf (constant (F := Ideal) S_ .f32 0x3F333333#32) mse) (mulf (constant (F := Ideal) S_ .f32 0x3E99999A#32) corr))
    shapeCasts_S_S1

variable (m : (ℓ : Loc nD τ sig) → Buf (Elt Ideal) ℓ) (ρ : Dev nD → PrngReg)

/-- @main's result after the host lines: the loss of the table. -/
theorem tail_eq (c : Dev nD) :
    Pipeline.afterTail₀ cfgs (dats m) 0 (V0 m) [hostOps1] c main_v42 = lossOfTable (table m c) := by
  unfold Pipeline.afterTail₀
  simp only [List.flatten_cons, List.flatten_nil, List.append_nil]
  after_results_simp
  have hw : Pipeline.withArrays (cfgs 0).spec c (V0 m c) (fun w => (dats m 0 c).arrAt w (cfgs 0).N) (Proc.devRef .tc main_v0)
      = table m c :=
    (Pipeline.withArrays_arr spec0 launch0.win.arr_inj c _ _ 2).trans (final m c)
  rw [hw]
  rfl

/-- The kernel's run, read: @main's result is the loss of the table, and the arguments end unchanged. -/
theorem run : θ_run defs (onTc (τ := τ) (main (F := Ideal))) ⟨m, fun _ => 0, ρ⟩ fun r => ∀ c : Dev nD,
      r.2.mem ((c.tc : Thread nD τ).loc main_v42) = lossOfTable (table m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v42 (Pipeline.mem_restRefs_of main_v42 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Tail

end
-- ==== Proof.Loss.lean ====
/-
  The loss, as one function of a mean-squared-error term and, per row, a correlation numerator and the square of
  its denominator:
      loss = w₁ · mse + w₂ · ( (0 + ∑ over the 256 rows of (1 − num / max(√den², ε))) / 256 ),
  with the weights, the one, ε and 256 the programs' own float words (the same words in both programs, so they are
  never evaluated). Both programs are read to this form; they differ in how they spell mse, num and den².
-/
import Idealize.ShloMosaic.PureOps.Ideal
import Idealize.ShloMosaic.Lib.ValueIdx

noncomputable section

open scoped BigOperators

namespace Cert.Loss

open Idealize.ShloMosaic Idealize.ShloMosaic.ValueIdx

/-- The word of 65536.0, a row's length. -/
abbrev cN : EReal := Ideal.ofBits .f32 0x47800000#32
/-- The word of +0.0. -/
abbrev cZ : EReal := Ideal.ofBits .f32 0x00000000#32

/-- The loss from its three ingredients. -/
def lossFrom (mse : EReal) (num den2 : Fin 256 → EReal) : EReal :=
  Ideal.ofBits .f32 0x3F333333#32 * mse
    + Ideal.ofBits .f32 0x3E99999A#32
      * Ideal.div (cZ + ∑ r : Fin 256, (Ideal.ofBits .f32 0x3F800000#32
          - Ideal.div (num r) (max (Ideal.sqrt (den2 r)) (Ideal.ofBits .f32 0x322BCC77#32))))
        (Ideal.ofBits .f32 0x43800000#32)

/-- A [256, 65536] array of extended reals. -/
abbrev Arr : Type := (⟨2, ![256, 65536]⟩ : Shape).Idx → EReal

/-! ### The reference's spelling: centred rows -/

/-- A row's mean: its sum (from zero) over the row's length. -/
def mean (a : Arr) (r : Fin 256) : EReal := Ideal.div (cZ + ∑ k : Fin 65536, a (ix2 r k)) cN

/-- The centred sum of products of row `r` of y_true (`a1`) and y_pred (`a0`). -/
def refNum (a0 a1 : Arr) (r : Fin 256) : EReal :=
  cZ + ∑ k : Fin 65536, (a1 (ix2 r k) - mean a1 r) * (a0 (ix2 r k) - mean a0 r)

/-- The centred sum of squares of row `r`. -/
def refVar (a : Arr) (r : Fin 256) : EReal :=
  cZ + ∑ k : Fin 65536, (a (ix2 r k) - mean a r) * (a (ix2 r k) - mean a r)

/-- The squared denominator: the product of the two centred sums of squares. -/
def refDen2 (a0 a1 : Arr) (r : Fin 256) : EReal := refVar a1 r * refVar a0 r

/-- The mean squared error: the sum of all squared differences over the word of 2²⁴. -/
def refMse (a0 a1 : Arr) : EReal :=
  Ideal.div (cZ + ∑ j : (⟨2, ![256, 65536]⟩ : Shape).Idx, (a0 j - a1 j) * (a0 j - a1 j)) (Ideal.ofBits .f32 0x4B800000#32)

/-! ### The kernel's spelling: raw row sums `S r j` (j = 0 … 5: ∑x, ∑y, ∑x·y, ∑x·x, ∑y·y, ∑(x−y)²) -/

def kNum (S : Fin 256 → Fin 6 → EReal) (r : Fin 256) : EReal := S r 2 - Ideal.div (S r 0 * S r 1) cN

def kDen2 (S : Fin 256 → Fin 6 → EReal) (r : Fin 256) : EReal :=
  max ((S r 3 - Ideal.div (S r 0 * S r 0) cN) * (S r 4 - Ideal.div (S r 1 * S r 1) cN)) cZ

def kMse (S : Fin 256 → Fin 6 → EReal) : EReal :=
  Ideal.div (cZ + ∑ r : Fin 256, S r 5) (Ideal.ofBits .f32 0x43800000#32 * Ideal.ofBits .f32 0x47800000#32)

/-- A sum over the indices of a vector is the sum over its one coordinate. -/
theorem sum_idx1 {M : Type*} [AddCommMonoid M] {n : Nat} (f : (⟨1, ![n]⟩ : Shape).Idx → M) :
    ∑ i, f i = ∑ r : Fin n, f (ix1 r) :=
  Fintype.sum_equiv ⟨fun i => i 0, fun r => ix1 r, fun i => (eq_ix1 i).symm, fun _ => rfl⟩ _ _
    fun i => congrArg f (eq_ix1 i)

end Cert.Loss

end
-- ==== Proof.KernelLoss.lean ====
/-
  The kernel's host tail, read at its one result entry: the loss of raw row sums.

  Entry `r` of column `j` of the table is `S (r, j)`; the tail's per-row terms are pointwise in `r`, its two sums run
  over the 256 rows from the zero word.
-/
import proofs.«153665_j63720134803972_2_alg».proof.Proof.KernelTail
import proofs.«153665_j63720134803972_2_alg».proof.Proof.Loss

noncomputable section

open scoped BigOperators
open Idealize.ShloMosaic Idealize.ShloMosaic.ValueIdx

namespace Cert.KernelIdeal.KLoss

open Cert.KernelIdeal Cert.KernelIdeal.Gen Cert.KernelIdeal.Tail Cert.Loss

theorem col0_apply (S : Vec Ideal S256x6 .f32) (h : S256x6.Slices ![0, 0] S256x1) (r : Fin 256) :
    colOf S ![0, 0] h (ix1 r) = S (ix2 r (0 : Fin 6)) := by
  unfold colOf
  refine (shapeCast_apply _ shapeCasts_S256x1_S256 (ix1 r) (ix2 r (0 : Fin 1)) ?_).trans ?_
  · rw [Shape.rowMajor_val_two, Shape.rowMajor_val_one]
    show r.val * 1 + 0 = r.val
    omega
  · refine extractStridedSlice_apply _ S h (ix2 r (0 : Fin 1)) (ix2 r (0 : Fin 6)) (fun a => ?_)
    match a with
    | ⟨0, _⟩ => show r.val = 0 + r.val; omega
    | ⟨1, _⟩ => rfl

theorem col1_apply (S : Vec Ideal S256x6 .f32) (h : S256x6.Slices ![0, 1] S256x1) (r : Fin 256) :
    colOf S ![0, 1] h (ix1 r) = S (ix2 r (1 : Fin 6)) := by
  unfold colOf
  refine (shapeCast_apply _ shapeCasts_S256x1_S256 (ix1 r) (ix2 r (0 : Fin 1)) ?_).trans ?_
  · rw [Shape.rowMajor_val_two, Shape.rowMajor_val_one]
    show r.val * 1 + 0 = r.val
    omega
  · refine extractStridedSlice_apply _ S h (ix2 r (0 : Fin 1)) (ix2 r (1 : Fin 6)) (fun a => ?_)
    match a with
    | ⟨0, _⟩ => show r.val = 0 + r.val; omega
    | ⟨1, _⟩ => rfl

theorem col2_apply (S : Vec Ideal S256x6 .f32) (h : S256x6.Slices ![0, 2] S256x1) (r : Fin 256) :
    colOf S ![0, 2] h (ix1 r) = S (ix2 r (2 : Fin 6)) := by
  unfold colOf
  refine (shapeCast_apply _ shapeCasts_S256x1_S256 (ix1 r) (ix2 r (0 : Fin 1)) ?_).trans ?_
  · rw [Shape.rowMajor_val_two, Shape.rowMajor_val_one]
    show r.val * 1 + 0 = r.val
    omega
  · refine extractStridedSlice_apply _ S h (ix2 r (0 : Fin 1)) (ix2 r (2 : Fin 6)) (fun a => ?_)
    match a with
    | ⟨0, _⟩ => show r.val = 0 + r.val; omega
    | ⟨1, _⟩ => rfl

theorem col3_apply (S : Vec Ideal S256x6 .f32) (h : S256x6.Slices ![0, 3] S256x1) (r : Fin 256) :
    colOf S ![0, 3] h (ix1 r) = S (ix2 r (3 : Fin 6)) := by
  unfold colOf
  refine (shapeCast_apply _ shapeCasts_S256x1_S256 (ix1 r) (ix2 r (0 : Fin 1)) ?_).trans ?_
  · rw [Shape.rowMajor_val_two, Shape.rowMajor_val_one]
    show r.val * 1 + 0 = r.val
    omega
  · refine extractStridedSlice_apply _ S h (ix2 r (0 : Fin 1)) (ix2 r (3 : Fin 6)) (fun a => ?_)
    match a with
    | ⟨0, _⟩ => show r.val = 0 + r.val; omega
    | ⟨1, _⟩ => rfl

theorem col4_apply (S : Vec Ideal S256x6 .f32) (h : S256x6.Slices ![0, 4] S256x1) (r : Fin 256) :
    colOf S ![0, 4] h (ix1 r) = S (ix2 r (4 : Fin 6)) := by
  unfold colOf
  refine (shapeCast_apply _ shapeCasts_S256x1_S256 (ix1 r) (ix2 r (0 : Fin 1)) ?_).trans ?_
  · rw [Shape.rowMajor_val_two, Shape.rowMajor_val_one]
    show r.val * 1 + 0 = r.val
    omega
  · refine extractStridedSlice_apply _ S h (ix2 r (0 : Fin 1)) (ix2 r (4 : Fin 6)) (fun a => ?_)
    match a with
    | ⟨0, _⟩ => show r.val = 0 + r.val; omega
    | ⟨1, _⟩ => rfl

theorem col5_apply (S : Vec Ideal S256x6 .f32) (h : S256x6.Slices ![0, 5] S256x1) (r : Fin 256) :
    colOf S ![0, 5] h (ix1 r) = S (ix2 r (5 : Fin 6)) := by
  unfold colOf
  refine (shapeCast_apply _ shapeCasts_S256x1_S256 (ix1 r) (ix2 r (0 : Fin 1)) ?_).trans ?_
  · rw [Shape.rowMajor_val_two, Shape.rowMajor_val_one]
    show r.val * 1 + 0 = r.val
    omega
  · refine extractStridedSlice_apply _ S h (ix2 r (0 : Fin 1)) (ix2 r (5 : Fin 6)) (fun a => ?_)
    match a with
    | ⟨0, _⟩ => show r.val = 0 + r.val; omega
    | ⟨1, _⟩ => rfl

/-- A repeated scalar word, read at an index. -/
theorem splat_apply (w : BitVec 32) (i : S256.Idx) : splat w i = Ideal.ofBits .f32 w :=
  broadcastInDim_apply _ bcast_S_S256 _ i ix0 (fun a => a.elim0)

/-- The host's sum of a vector of 256 from a scalar word: the word plus the sum of the entries. -/
theorem sum256 (x : Vec Ideal S256 .f32) (w : BitVec 32) (i : S_.Idx) :
    Host.reduceAdd (F := Ideal) x (constant (F := Ideal) S_ .f32 w) reducesTo_S256_S_d0 h_S_ i
      = Ideal.ofBits .f32 w + ∑ r : Fin 256, x (ix1 r) := by
  simp only [Host.reduceAdd, Ideal.hostReduceAdd_def]
  refine (Ideal.hostReduceAdd_total reducesTo_S256_S_d0 (fun b => b.elim0) x _ i).trans ?_
  rw [sum_idx1]
  rfl

/-- The kernel's result at its one entry: the loss of the table's raw row sums. -/
theorem lossOfTable_apply (S : Vec Ideal S256x6 .f32) : lossOfTable S (ix1 (0 : Fin 1))
    = lossFrom (kMse fun r j => S (ix2 r j)) (kNum fun r j => S (ix2 r j)) (kDen2 fun r j => S (ix2 r j)) := by
  unfold lossOfTable
  dsimp only
  refine (shapeCast_apply _ shapeCasts_S_S1 (ix1 (0 : Fin 1)) ix0 (by decide)).trans ?_
  simp only [addf, mulf, subf, maximumf, Host.divf, Host.sqrt, sum256, constant, col0_apply, col1_apply, col2_apply, col3_apply,
    col4_apply, col5_apply, splat_apply, Ideal.addf_def, Ideal.mulf_def, Ideal.subf_def, Ideal.maximumf_def,
    Ideal.hostDivf_def, Ideal.hostUnary_sqrt_def, Ideal.ofBits_def]
  rfl

end Cert.KernelIdeal.KLoss

end
-- ==== Proof.RefLoss.lean ====
/-
  The reference, read at its one result entry: the loss of centred rows.

  The reference centres each row of y_true and of y_pred by its mean (the row's sum over 65536), sums the products
  and the squares of the centred rows, and forms 1 − num / max(√(var_x · var_y), ε) per row; its mean squared error is
  the sum of all squared differences over 2²⁴. Read one operation at a time from the generated stages.
-/
import proofs.«153665_j63720134803972_2_alg».proof.Proof.Gen.ReferenceIdeal.Read
import proofs.«153665_j63720134803972_2_alg».proof.Proof.Loss

noncomputable section

open scoped BigOperators
open Idealize.ShloMosaic Idealize.ShloMosaic.ValueIdx

namespace Cert.ReferenceIdeal.RefLoss

open Cert.ReferenceIdeal Cert.ReferenceIdeal.Read Cert.Loss

variable (a0 a1 : (⟨S256x65536, .f32⟩ : BufTy).Contents (Elt Ideal))

/-- The mean of row `r` of y_true, as the reference's [256, 1] column holds it. -/
theorem mean_true (r : Fin 256) : val_main_v7 (F := Ideal) a1 (ix2 r (0 : Fin 1)) = mean a1 r := by
  rw [val_main_v7_apply, val_main_v5_apply, val_main_v6_apply, val_main_v4_apply, val_main_cst_2_apply,
    val_main_cst_1_apply]
  unfold mean
  refine congrArg (fun s => Ideal.div (cZ + s) cN) (Finset.sum_congr rfl fun k _ => congrArg a1 (funext fun a => Fin.ext ?_))
  match a with
  | ⟨0, _⟩ => rfl
  | ⟨1, _⟩ => rfl

/-- The mean of row `r` of y_pred. -/
theorem mean_pred (r : Fin 256) : val_main_v13 (F := Ideal) a0 (ix2 r (0 : Fin 1)) = mean a0 r := by
  rw [val_main_v13_apply, val_main_v11_apply, val_main_v12_apply, val_main_v10_apply, val_main_cst_4_apply,
    val_main_cst_3_apply]
  unfold mean
  refine congrArg (fun s => Ideal.div (cZ + s) cN) (Finset.sum_congr rfl fun k _ => congrArg a0 (funext fun a => Fin.ext ?_))
  match a with
  | ⟨0, _⟩ => rfl
  | ⟨1, _⟩ => rfl

/-- The centred y_true at (r, k). -/
theorem centred_true (r : Fin 256) (k : Fin 65536) :
    val_main_v9 (F := Ideal) a1 (ix2 r k) = a1 (ix2 r k) - mean a1 r := by
  rw [val_main_v9_apply, val_main_v8_apply, ← mean_true a1 r]
  refine congrArg (fun i => a1 (ix2 r k) - val_main_v7 (F := Ideal) a1 i) (funext fun a => Fin.ext ?_)
  match a with
  | ⟨0, _⟩ => rfl
  | ⟨1, _⟩ => rfl

/-- The centred y_pred at (r, k). -/
theorem centred_pred (r : Fin 256) (k : Fin 65536) :
    val_main_v15 (F := Ideal) a0 (ix2 r k) = a0 (ix2 r k) - mean a0 r := by
  rw [val_main_v15_apply, val_main_v14_apply, ← mean_pred a0 r]
  refine congrArg (fun i => a0 (ix2 r k) - val_main_v13 (F := Ideal) a0 i) (funext fun a => Fin.ext ?_)
  match a with
  | ⟨0, _⟩ => rfl
  | ⟨1, _⟩ => rfl

theorem idx17 (r : Fin 256) (k : Fin 65536) : idx_main_v17 (ix1 r) k = ix2 r k := by
  funext a; apply Fin.ext
  match a with
  | ⟨0, _⟩ => rfl
  | ⟨1, _⟩ => rfl
theorem idx19 (r : Fin 256) (k : Fin 65536) : idx_main_v19 (ix1 r) k = ix2 r k := by
  funext a; apply Fin.ext
  match a with
  | ⟨0, _⟩ => rfl
  | ⟨1, _⟩ => rfl
theorem idx21 (r : Fin 256) (k : Fin 65536) : idx_main_v21 (ix1 r) k = ix2 r k := by
  funext a; apply Fin.ext
  match a with
  | ⟨0, _⟩ => rfl
  | ⟨1, _⟩ => rfl

/-- The numerator of row `r`. -/
theorem num_row (r : Fin 256) : val_main_v17 (F := Ideal) a0 a1 (ix1 r) = refNum a0 a1 r := by
  rw [val_main_v17_apply, val_main_cst_5_apply]
  unfold refNum
  refine congrArg (cZ + ·) (Finset.sum_congr rfl fun k _ => ?_)
  rw [idx17, val_main_v16_apply, centred_true, centred_pred]
  rfl

/-- The centred sum of squares of row `r` of y_true, -/
theorem var_true (r : Fin 256) : val_main_v19 (F := Ideal) a1 (ix1 r) = refVar a1 r := by
  rw [val_main_v19_apply, val_main_cst_6_apply]
  unfold refVar
  refine congrArg (cZ + ·) (Finset.sum_congr rfl fun k _ => ?_)
  rw [idx19, val_main_v18_apply, centred_true]
  rfl

/-- and of y_pred. -/
theorem var_pred (r : Fin 256) : val_main_v21 (F := Ideal) a0 (ix1 r) = refVar a0 r := by
  rw [val_main_v21_apply, val_main_cst_7_apply]
  unfold refVar
  refine congrArg (cZ + ·) (Finset.sum_congr rfl fun k _ => ?_)
  rw [idx21, val_main_v20_apply, centred_pred]
  rfl

/-- One row's term 1 − r. -/
theorem one_minus_r (r : Fin 256) : val_main_v28 (F := Ideal) a0 a1 (ix1 r)
    = Ideal.ofBits .f32 0x3F800000#32
      - Ideal.div (refNum a0 a1 r) (max (Ideal.sqrt (refDen2 a0 a1 r)) (Ideal.ofBits .f32 0x322BCC77#32)) := by
  rw [val_main_v28_apply, val_main_v27_apply, val_main_cst_9_apply, val_main_v26_apply, val_main_v25_apply,
    val_main_v23_apply, val_main_v22_apply, val_main_v24_apply, val_main_cst_8_apply, num_row, var_true, var_pred]
  simp only [Ideal.subf_def, Ideal.hostDivf_def, Ideal.maximumf_def, Ideal.hostUnary_sqrt_def, Ideal.mulf_def,
    Ideal.ofBits_def, refDen2]

/-- The mean squared error. -/
theorem mse_eq (i : S_.Idx) : val_main_v3 (F := Ideal) a0 a1 i = refMse a0 a1 := by
  rw [val_main_v3_apply, val_main_v2_apply, val_main_cst_apply, val_main_cst_0_apply]
  rfl

/-- The reference's result at its one entry: the loss of the centred rows. -/
theorem result_apply : val_main_v34 (F := Ideal) a0 a1 (ix1 (0 : Fin 1))
    = lossFrom (refMse a0 a1) (refNum a0 a1) (refDen2 a0 a1) := by
  have e : val_main_v34 (F := Ideal) a0 a1 (ix1 (0 : Fin 1)) = val_main_v33 (F := Ideal) a0 a1 ix0 := by
    unfold val_main_v34
    exact shapeCast_apply _ _ _ _ (by decide)
  rw [e, val_main_v33_apply, val_main_v31_apply, val_main_v32_apply, val_main_cst_12_apply, val_main_cst_13_apply,
    val_main_v30_apply, val_main_cst_11_apply, val_main_v29_apply, val_main_cst_10_apply, mse_eq, sum_idx1]
  unfold lossFrom
  simp only [one_minus_r]
  rfl

end Cert.ReferenceIdeal.RefLoss

end
-- ==== Proof.Pearson.lean ====
/-
  One row of a Pearson loss, over the reals.

  For a row of `n` real pairs `(x i, y i)` the centred sum of products is the raw sum of products less the
  product of the sums over `n`:
      ∑ (x i - (∑ x) / n) * (y i - (∑ y) / n) = ∑ x i * y i - (∑ x) * (∑ y) / n,
  and with `y = x` the centred sum of squares, a sum of squares and so non-negative. A real sum coerced into
  the extended reals is the sum of the coerced terms.
-/
import Mathlib

namespace Cert.Pearson

open Finset

variable {ι : Type} [Fintype ι]

/-- A finite real sum, coerced, is the sum of the coerced terms. -/
theorem coe_sum {κ : Type} (s : Finset κ) (f : κ → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The centred sum of products of a row is the raw sum of products less the product of the sums over the row's
    length. -/
theorem centred_mul (x y : ι → ℝ) (N : ℝ) (hN : (Fintype.card ι : ℝ) = N) (h0 : N ≠ 0) :
    ∑ i, (x i - (∑ j, x j) / N) * (y i - (∑ j, y j) / N)
      = ∑ i, x i * y i - (∑ i, x i) * (∑ i, y i) / N := by
  simp only [sub_mul, mul_sub, Finset.sum_sub_distrib, ← Finset.sum_mul, ← Finset.mul_sum, Finset.sum_const,
    Finset.card_univ, nsmul_eq_mul, hN]
  field_simp
  ring

/-- A centred sum of squares is non-negative. -/
theorem centred_sq_nonneg (x : ι → ℝ) (μ : ℝ) : 0 ≤ ∑ i, (x i - μ) * (x i - μ) :=
  Finset.sum_nonneg fun i _ => mul_self_nonneg _

end Cert.Pearson
-- ==== Proof.Bridge.lean ====
/-
  The two spellings of the loss agree on real arrays.

  For a row of real pairs (x k, y k), k < n = 65536, with sums ∑x, ∑y, ∑xy, ∑xx, ∑yy:
    * the reference's centred sum of products ∑ (x − ∑x/n)(y − ∑y/n) is the kernel's ∑xy − ∑x·∑y / n (Pearson);
    * likewise the centred sums of squares are ∑xx − ∑x·∑x / n and ∑yy − ∑y·∑y / n; being sums of squares they are
      non-negative, so their product is, and the kernel's clamp max(·, 0) under the square root changes nothing;
    * (x − y)² = (y − x)², and the sum over all entries is the sum over rows of the row sums; 256 · 65536 = 2²⁴.
  Every step is an identity of real numbers; the arrays' entries are real by the precondition, and the operations of
  the extended reals agree with the real ones on reals (the division by the real 65536 is the product with 1/65536).
-/
import proofs.«153665_j63720134803972_2_alg».proof.Proof.Loss
import proofs.«153665_j63720134803972_2_alg».proof.Proof.Pearson
import Idealize.ShloMosaic.PureOps.Ideal.Laws

noncomputable section

open scoped BigOperators

namespace Cert.Loss

open Idealize.ShloMosaic Idealize.ShloMosaic.ValueIdx Cert.Pearson

/-- The word of 65536.0 denotes the real 65536. -/
theorem cN_eq : cN = ((65536 : ℝ) : EReal) := by
  simp [cN, Ideal.ofBits, Ideal.ieee, -EReal.coe_mul]; norm_num

/-- The zero word denotes 0. -/
theorem cZ_eq : cZ = 0 := Ideal.ofBits_zero_f32

/-- The word of 256.0 denotes the real 256, -/
theorem c256_eq : Ideal.ofBits .f32 0x43800000#32 = ((256 : ℝ) : EReal) := by
  simp [Ideal.ofBits, Ideal.ieee, -EReal.coe_mul]; norm_num

/-- and the word 0x4B800000 the real 2²⁴. -/
theorem c2p24_eq : Ideal.ofBits .f32 0x4B800000#32 = ((16777216 : ℝ) : EReal) := by
  simp [Ideal.ofBits, Ideal.ieee, -EReal.coe_mul]; norm_num

/-- The quotient of a real by 65536 at the ideal instance. -/
theorem div_cN (s : ℝ) : Ideal.div (s : EReal) cN = ((s / 65536 : ℝ) : EReal) := by
  rw [cN_eq, Ideal.div_coe (by norm_num : (65536 : ℝ) ≠ 0), ← EReal.coe_mul]
  congr 1
  ring

section Row

variable (x y : Fin 65536 → ℝ)

/-- A row's mean. -/
theorem mean_real : Ideal.div (cZ + ∑ k : Fin 65536, ((x k : ℝ) : EReal)) cN = (((∑ k, x k) / 65536 : ℝ) : EReal) := by
  rw [cZ_eq, zero_add, ← coe_sum, div_cN]

/-- The reference's centred sum of products, as a real. -/
theorem ref_sum :
    cZ + ∑ k : Fin 65536, (((x k : ℝ) : EReal) - (((∑ j, x j) / 65536 : ℝ) : EReal))
        * (((y k : ℝ) : EReal) - (((∑ j, y j) / 65536 : ℝ) : EReal))
      = ((∑ k, (x k - (∑ j, x j) / 65536) * (y k - (∑ j, y j) / 65536) : ℝ) : EReal) := by
  rw [cZ_eq, zero_add, coe_sum]
  refine Finset.sum_congr rfl fun k _ => ?_
  rw [← EReal.coe_sub, ← EReal.coe_sub, ← EReal.coe_mul]

/-- The kernel's raw form, as a real. -/
theorem raw_sum :
    (∑ k : Fin 65536, ((x k : ℝ) : EReal) * ((y k : ℝ) : EReal))
        - Ideal.div ((∑ k : Fin 65536, ((x k : ℝ) : EReal)) * (∑ k : Fin 65536, ((y k : ℝ) : EReal))) cN
      = ((∑ k, x k * y k - (∑ k, x k) * (∑ k, y k) / 65536 : ℝ) : EReal) := by
  have e : (∑ k : Fin 65536, ((x k : ℝ) : EReal) * ((y k : ℝ) : EReal)) = ((∑ k, x k * y k : ℝ) : EReal) := by
    rw [coe_sum]; exact Finset.sum_congr rfl fun k _ => (EReal.coe_mul _ _).symm
  rw [e, ← coe_sum, ← coe_sum, ← EReal.coe_mul, div_cN, ← EReal.coe_sub]

/-- The two forms are one real (the Pearson identity at n = 65536). -/
theorem raw_eq_ref :
    (∑ k : Fin 65536, ((x k : ℝ) : EReal) * ((y k : ℝ) : EReal))
        - Ideal.div ((∑ k : Fin 65536, ((x k : ℝ) : EReal)) * (∑ k : Fin 65536, ((y k : ℝ) : EReal))) cN
      = cZ + ∑ k : Fin 65536, (((x k : ℝ) : EReal) - (((∑ j, x j) / 65536 : ℝ) : EReal))
        * (((y k : ℝ) : EReal) - (((∑ j, y j) / 65536 : ℝ) : EReal)) := by
  rw [raw_sum, ref_sum, centred_mul x y 65536 (by simp) (by norm_num)]

end Row

/-- On arrays of reals, the loss of the raw row sums is the loss of the centred rows. -/
theorem bridge (a0 a1 : Arr) (h0 : ∀ i, ∃ r : ℝ, a0 i = (r : EReal)) (h1 : ∀ i, ∃ r : ℝ, a1 i = (r : EReal))
    (S : Fin 256 → Fin 6 → EReal)
    (hS0 : ∀ r, S r 0 = ∑ k : Fin 65536, a1 (ix2 r k)) (hS1 : ∀ r, S r 1 = ∑ k : Fin 65536, a0 (ix2 r k))
    (hS2 : ∀ r, S r 2 = ∑ k : Fin 65536, a1 (ix2 r k) * a0 (ix2 r k))
    (hS3 : ∀ r, S r 3 = ∑ k : Fin 65536, a1 (ix2 r k) * a1 (ix2 r k))
    (hS4 : ∀ r, S r 4 = ∑ k : Fin 65536, a0 (ix2 r k) * a0 (ix2 r k))
    (hS5 : ∀ r, S r 5 = ∑ k : Fin 65536, (a1 (ix2 r k) - a0 (ix2 r k)) * (a1 (ix2 r k) - a0 (ix2 r k))) :
    lossFrom (kMse S) (kNum S) (kDen2 S) = lossFrom (refMse a0 a1) (refNum a0 a1) (refDen2 a0 a1) := by
  choose Y hY using h0
  choose X hX using h1
  have hmean0 : ∀ r, mean a0 r = (((∑ k, Y (ix2 r k)) / 65536 : ℝ) : EReal) := fun r => by
    unfold mean; simp only [hY]; exact mean_real _
  have hmean1 : ∀ r, mean a1 r = (((∑ k, X (ix2 r k)) / 65536 : ℝ) : EReal) := fun r => by
    unfold mean; simp only [hX]; exact mean_real _
  -- the numerators
  have hnum : ∀ r, kNum S r = refNum a0 a1 r := fun r => by
    unfold kNum refNum
    rw [hS2, hS0, hS1, hmean0, hmean1]
    simp only [hX, hY]
    exact raw_eq_ref (fun k => X (ix2 r k)) (fun k => Y (ix2 r k))
  -- the centred sums of squares
  have hvar1 : ∀ r, S r 3 - Ideal.div (S r 0 * S r 0) cN = refVar a1 r := fun r => by
    unfold refVar
    rw [hS3, hS0, hmean1]
    simp only [hX]
    exact raw_eq_ref (fun k => X (ix2 r k)) (fun k => X (ix2 r k))
  have hvar0 : ∀ r, S r 4 - Ideal.div (S r 1 * S r 1) cN = refVar a0 r := fun r => by
    unfold refVar
    rw [hS4, hS1, hmean0]
    simp only [hY]
    exact raw_eq_ref (fun k => Y (ix2 r k)) (fun k => Y (ix2 r k))
  have hvar_nonneg : ∀ (a : Arr) (Z : (⟨2, ![256, 65536]⟩ : Shape).Idx → ℝ) (hZ : ∀ i, a i = (Z i : EReal)) (r : Fin 256),
      0 ≤ refVar a r := fun a Z hZ r => by
    have hm : mean a r = (((∑ k, Z (ix2 r k)) / 65536 : ℝ) : EReal) := by
      unfold mean; simp only [hZ]; exact mean_real _
    unfold refVar
    rw [hm]
    simp only [hZ]
    rw [ref_sum (fun k => Z (ix2 r k)) (fun k => Z (ix2 r k))]
    exact EReal.coe_nonneg.mpr (centred_sq_nonneg _ _)
  have hden : ∀ r, kDen2 S r = refDen2 a0 a1 r := fun r => by
    unfold kDen2 refDen2
    rw [hvar1, hvar0, cZ_eq]
    exact max_eq_left (mul_nonneg (hvar_nonneg a1 X hX r) (hvar_nonneg a0 Y hY r))
  -- the mean squared error
  have hmse : kMse S = refMse a0 a1 := by
    unfold kMse refMse
    rw [c256_eq, show Ideal.ofBits .f32 0x47800000#32 = ((65536 : ℝ) : EReal) from cN_eq, c2p24_eq, ← EReal.coe_mul, show ((256 : ℝ) * 65536) = 16777216 by norm_num, sum_idx2]
    refine congrArg (fun s => Ideal.div (cZ + s) ((16777216 : ℝ) : EReal)) (Finset.sum_congr rfl fun r _ => ?_)
    rw [hS5]
    refine Finset.sum_congr rfl fun k _ => ?_
    rw [hX, hY, ← EReal.coe_sub, ← EReal.coe_sub, ← EReal.coe_mul, ← EReal.coe_mul]
    congr 1
    ring
  rw [hmse, funext hnum, funext hden]

end Cert.Loss

end
-- ==== Proof.LibFiniteEntry.lean ====
/-
  Reading a precondition's conjuncts back, at the ideal instance.

  A precondition over float arrays is printed as a conjunction of `jnp.all` tests, each an elementwise comparison
  reduced by `and` over every axis. Two tests are read back here, for an array of ANY shape:
  * `jnp.all(jnp.abs(x) < inf)` — every entry's absolute value below the word `0x7F800000`, which at the ideal
    instance is `⊤` — says every entry of `x` is a REAL (`all_real_of_all_abs_lt_inf`; one value:
    `real_of_hostAbsf_olt_inf`): an extended real is `⊥`, a real or `⊤`, and `max x (−x) < ⊤` excludes both ends.
  * `jnp.all(x != 0)` — every entry unequal to the word `0x00000000`, the ideal `0` — says no entry is zero
    (`all_ne_zero_of_all_une_zero`; one value: `ne_zero_of_une_zero`).
  The conjunction itself is an `and` of one-bit words: it is 1 exactly when both sides are (`andi_eq_one`).
-/
import Idealize.ShloMosaic.PureOps.Ideal.Laws
import Idealize.ShloMosaic.Lib.ReduceAll

noncomputable section

namespace ProofLib.Finite

open Idealize.ShloMosaic

/-- The f32 word of `+∞` denotes the top of the extended reals. -/
theorem ofBits_inf_f32 : Ideal.ofBits .f32 0x7F800000#32 = ⊤ := by simp [Ideal.ofBits, Ideal.ieee]

/-- An extended real whose absolute value `max x (−x)` is below `⊤` is a real. -/
theorem exists_real_of_abs_lt_top (x : EReal) (hlt : max x (-x) < ⊤) : ∃ r : ℝ, x = (r : EReal) := by
  have hx_top : x ≠ ⊤ := fun e => by rw [e] at hlt; simp at hlt
  have hx_bot : x ≠ ⊥ := fun e => by rw [e] at hlt; simp at hlt
  exact ⟨x.toReal, (EReal.coe_toReal hx_top hx_bot).symm⟩

/-- One value: the host's `|x| < +∞`, true, says `x` is a real. -/
theorem real_of_hostAbsf_olt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  refine exists_real_of_abs_lt_top x ?_
  by_contra hn
  simp [hn] at h'

/-- One value: the host's `x != 0`, true, says `x` is not zero. -/
theorem ne_zero_of_une_zero (x : Ideal .f32)
    (h : FloatOps.cmpf .une x (FloatOps.ofBits (F := Ideal) .f32 0x00000000#32) = 1#1) : (x : EReal) ≠ 0 := by
  have h' : Ideal.cmp .une (x : EReal) (Ideal.ofBits .f32 0x00000000#32) = 1#1 := h
  rw [Ideal.ofBits_zero_f32] at h'
  unfold Ideal.cmp at h'
  intro hx
  simp [hx] at h'

variable {s t u : Shape} {axes : List (Fin s.rank)}

/-- `jnp.all(jnp.abs(x) < inf)`, true: every entry of `x` is a real. `bound` is the comparison's right operand, the
    `+∞` word at every index (a broadcast of the scalar constant). -/
theorem all_real_of_all_abs_lt_inf [Subsingleton t.Idx] (x bound : FVec Ideal s .f32)
    (hbound : ∀ i, bound i = FloatOps.ofBits (F := Ideal) .f32 0x7F800000#32)
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, (x i : EReal) = (r : EReal) := by
  have hi : cmpf .olt (Host.absf x) bound i = 1#1 := Host.reduce_andi_all _ init h hu j e i
  refine real_of_hostAbsf_olt_inf (x i) ?_
  rw [← hbound i]
  exact hi

/-- `jnp.all(x != 0)`, true: no entry of `x` is zero. `zero` is the comparison's right operand, the zero word at every
    index. -/
theorem all_ne_zero_of_all_une_zero [Subsingleton t.Idx] (x zero : FVec Ideal s .f32)
    (hzero : ∀ i, zero i = FloatOps.ofBits (F := Ideal) .f32 0x00000000#32)
    (init : u.Idx → BitVec 1) (h : s.ReducesTo axes t) (hu : 0 < u.numel) (j : t.Idx)
    (e : Host.reduce IntOp.andi (cmpf .une x zero) init h hu j = 1#1) (i : s.Idx) : (x i : EReal) ≠ 0 := by
  have hi : cmpf .une x zero i = 1#1 := Host.reduce_andi_all _ init h hu j e i
  refine ne_zero_of_une_zero (x i) ?_
  rw [← hzero i]
  exact hi

/-- The conjunction of two one-bit flags is 1 exactly when both are. -/
theorem andi_eq_one (a b : BitVec 1) : a &&& b = 1#1 ↔ a = 1#1 ∧ b = 1#1 := by
  revert a b; decide

end ProofLib.Finite

end
-- ==== Proof.FiniteInputs.lean ====
/-
  The precondition, read back: every entry of both arguments is a real number.

  `finite_inputs` is the conjunction of two tests, one per argument, each "every |entry| is below +∞". At the ideal
  instance an entry is an extended real, and |x| < +∞ excludes both infinities; so when the predicate is all ones
  every entry of y_pred and of y_true is (the coercion of) a real.
-/
import proofs.«153665_j63720134803972_2_alg».proof.Pre_finite_inputs
import proofs.«153665_j63720134803972_2_alg».proof.Proof.Gen.Pre_finite_inputs
import proofs.«153665_j63720134803972_2_alg».proof.Proof.LibFiniteEntry
import Idealize.ShloMosaic.Lib.ValueIdx
import Idealize.ShloMosaic.Lib.Pipeline.Value

noncomputable section

namespace Cert.FiniteInputs

open Idealize.ShloMosaic Cert.Pre_finite_inputs

instance : Subsingleton S_.Idx := ⟨fun a b => funext fun d => d.elim0⟩

/-- The comparison's right operand is the +∞ word at every index. -/
theorem bound_apply [Facts] (i : S256x65536.Idx) :
    broadcastInDim S256x65536 ![] Facts.bcast_S_S256x65536 (constant (F := Ideal) S_ .f32 0x7F800000#32) i
      = FloatOps.ofBits (F := Ideal) .f32 0x7F800000#32 :=
  broadcastInDim_apply _ Facts.bcast_S_S256x65536 _ i ValueIdx.ix0 (fun a => a.elim0)

/-- Under the precondition every entry of both arguments is a real. -/
theorem all_real [Facts] (a0 a1 : FVec Ideal S256x65536 .f32) (h : fn (F := Ideal) a0 a1 = fun _ => 1#1) :
    (∀ i, ∃ r : ℝ, (a0 i : EReal) = (r : EReal)) ∧ (∀ i, ∃ r : ℝ, (a1 i : EReal) = (r : EReal)) := by
  have h0 := congrFun h ValueIdx.ix0
  dsimp only [fn] at h0
  obtain ⟨e0, e1⟩ := (ProofLib.Finite.andi_eq_one _ _).mp h0
  exact ⟨fun i => ProofLib.Finite.all_real_of_all_abs_lt_inf a0 _ bound_apply _ _ _ ValueIdx.ix0 e0 i,
    fun i => ProofLib.Finite.all_real_of_all_abs_lt_inf a1 _ bound_apply _ _ _ ValueIdx.ix0 e1 i⟩

end Cert.FiniteInputs

end
-- ==== Proof.Algebraic.lean ====
/-
  The two idealized programs compute one number.

  The kernel's result is the loss of its statistics table (RowSums, KernelTail), whose row `r`, column `j` is the sum
  over the row of statistic `j` of the pair (y_true, y_pred); the reference's is the loss of centred rows (RefLoss).
  Under the precondition the arguments' entries are real (FiniteInputs), and on real arrays the two losses agree
  (Bridge).
-/
import proofs.«153665_j63720134803972_2_alg».proof.Defs
import proofs.«153665_j63720134803972_2_alg».proof.Proof.KernelLoss
import proofs.«153665_j63720134803972_2_alg».proof.Proof.RefLoss
import proofs.«153665_j63720134803972_2_alg».proof.Proof.Bridge
import proofs.«153665_j63720134803972_2_alg».proof.Proof.FiniteInputs
import proofs.«153665_j63720134803972_2_alg».proof.Proof.Gen.ReferenceIdeal.Run

set_option maxRecDepth 16384

noncomputable section

open scoped BigOperators
open Idealize.ShloMosaic Idealize.ShloMosaic.TcCoe Idealize.SL.Sem Idealize.ShloMosaic.ValueIdx

namespace Cert.KernelIdeal.Sums

open Cert.KernelIdeal Cert.KernelIdeal.Gen Cert.KernelIdeal.Tile

variable (m : (ℓ : Loc nD τ sig) → Buf (Elt Ideal) ℓ)

/-- An entry at coordinates inside the array. -/
theorem entry_of_lt (a : Vec Ideal S256x65536 .f32) (r : Fin 256) (k : Fin 65536) : entry a r.val k.val = a (ix2 r k) := by
  unfold entry
  refine congrArg a (funext fun d => Fin.ext ?_)
  match d with
  | ⟨0, _⟩ => exact Nat.mod_eq_of_lt r.isLt
  | ⟨1, _⟩ => exact Nat.mod_eq_of_lt k.isLt

/-- The table at (r, j): the sum over row `r`'s 65536 pairs of statistic `j`. -/
theorem table_apply (c : Dev nD) (r : Fin 256) (j : Fin 6) :
    table m c (ix2 r j) = ∑ k : Fin 65536, stat j (m ((c : Thread nD τ).loc main_arg1) (ix2 r k)) (m ((c : Thread nD τ).loc main_arg0) (ix2 r k)) := by
  unfold table
  show ∑ col ∈ Finset.range 65536, term m c j r.val col = _
  rw [← Fin.sum_univ_eq_sum_range (fun col => term m c j r.val col) 65536]
  refine Finset.sum_congr rfl fun k _ => ?_
  unfold term
  rw [entry_of_lt, entry_of_lt]

/-- y_pred and y_true as the region finds them, as arrays of extended reals. -/
abbrev predArr (c : Dev nD) : Cert.Loss.Arr := m ((c : Thread nD τ).loc main_arg0)
abbrev trueArr (c : Dev nD) : Cert.Loss.Arr := m ((c : Thread nD τ).loc main_arg1)

/-- Column by column: the six raw sums of row `r`, with x the row of y_true and y the row of y_pred. -/
theorem table_x (c : Dev nD) (r : Fin 256) : table m c (ix2 r (0 : Fin 6)) = ∑ k : Fin 65536, trueArr m c (ix2 r k) :=
  table_apply m c r 0
theorem table_y (c : Dev nD) (r : Fin 256) : table m c (ix2 r (1 : Fin 6)) = ∑ k : Fin 65536, predArr m c (ix2 r k) :=
  table_apply m c r 1
theorem table_xy (c : Dev nD) (r : Fin 256) : table m c (ix2 r (2 : Fin 6))
    = ∑ k : Fin 65536, trueArr m c (ix2 r k) * predArr m c (ix2 r k) := table_apply m c r 2
theorem table_xx (c : Dev nD) (r : Fin 256) : table m c (ix2 r (3 : Fin 6))
    = ∑ k : Fin 65536, trueArr m c (ix2 r k) * trueArr m c (ix2 r k) := table_apply m c r 3
theorem table_yy (c : Dev nD) (r : Fin 256) : table m c (ix2 r (4 : Fin 6))
    = ∑ k : Fin 65536, predArr m c (ix2 r k) * predArr m c (ix2 r k) := table_apply m c r 4
theorem table_dd (c : Dev nD) (r : Fin 256) : table m c (ix2 r (5 : Fin 6))
    = ∑ k : Fin 65536, (trueArr m c (ix2 r k) - predArr m c (ix2 r k)) * (trueArr m c (ix2 r k) - predArr m c (ix2 r k)) :=
  table_apply m c r 5

end Cert.KernelIdeal.Sums

namespace Cert.Proof.Claims

/-- The one index of a one-element vector. -/
theorem idx_one (i : Cert.KernelIdeal.S1.Idx) : i = ix1 (0 : Fin 1) :=
  funext fun d => by
    match d with
    | ⟨0, _⟩ => exact Fin.ext (by have h : (i 0).val < 1 := (i 0).isLt; show (i 0).val = 0; omega)

theorem algebraic : Cert.algebraic_KernelIdeal_ReferenceIdeal := by
  intro m ρ m' ρ' hpre hagree
  refine ⟨fun c => Cert.KernelIdeal.Tail.lossOfTable (Cert.KernelIdeal.Sums.table m c), Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2]
  obtain ⟨h0, h1⟩ := Cert.FiniteInputs.all_real _ _ (hpre c)
  funext i
  dsimp only
  rw [idx_one i, Cert.ReferenceIdeal.RefLoss.result_apply, Cert.KernelIdeal.KLoss.lossOfTable_apply]
  exact (Cert.Loss.bridge (Cert.KernelIdeal.Sums.predArr m c) (Cert.KernelIdeal.Sums.trueArr m c) h0 h1
    (fun r j => Cert.KernelIdeal.Sums.table m c (ix2 r j))
    (Cert.KernelIdeal.Sums.table_x m c) (Cert.KernelIdeal.Sums.table_y m c) (Cert.KernelIdeal.Sums.table_xy m c)
    (Cert.KernelIdeal.Sums.table_xx m c) (Cert.KernelIdeal.Sums.table_yy m c) (Cert.KernelIdeal.Sums.table_dd m c)).symm

end Cert.Proof.Claims

end
-- ==== Proof.lean ====
/- The certificate: a Pearson-correlation loss computed from streamed row sums equals its centred reference.

   Both programs take y_pred and y_true, f32[256, 65536], and return the one number
       0.7 · mean((y_pred − y_true)²) + 0.3 · mean over rows of (1 − r),   r = num / max(√(var_x · var_y), ε),
   where for a row x of y_true and y of y_pred the reference centres the row (x − mean x, y − mean y) and sums
   products and squares, while the kernel streams each row once, block by block, accumulating the six raw sums
   ∑x, ∑y, ∑xy, ∑xx, ∑yy, ∑(x−y)² into a [256, 6] table and forms num = ∑xy − ∑x∑y/n, var = ∑xx − ∑x∑x/n on the host,
   clamping var_x·var_y at 0 before the square root.

   The three frame claims are the generated frames (the reference's from its generated run). The idealization
   rewrote nothing. The algebraic claim (Proof/Algebraic.lean): the region leaves the table of exact row sums
   (Proof/RowSums.lean, by induction over the grid's points), the host lines after it are one function of the table
   (Proof/KernelTail.lean, Proof/KernelLoss.lean), the reference is read stage by stage (Proof/RefLoss.lean), the
   precondition makes every entry real (Proof/FiniteInputs.lean), and on reals the two spellings are equal by the
   identity ∑(x − x̄)(y − ȳ) = ∑xy − ∑x∑y/n, the non-negativity of a sum of squares, and 256 · 65536 = 2²⁴
   (Proof/Pearson.lean, Proof/Bridge.lean). -/
import proofs.«153665_j63720134803972_2_alg».proof.Defs
import proofs.«153665_j63720134803972_2_alg».proof.Proof.Gen.Kernel
import proofs.«153665_j63720134803972_2_alg».proof.Proof.Gen.Kernel.Skeleton
import proofs.«153665_j63720134803972_2_alg».proof.Proof.Gen.Kernel.Launch
import proofs.«153665_j63720134803972_2_alg».proof.Proof.Gen.Kernel.Points
import proofs.«153665_j63720134803972_2_alg».proof.Proof.Gen.Kernel.Frame
import proofs.«153665_j63720134803972_2_alg».proof.Proof.Gen.KernelIdeal
import proofs.«153665_j63720134803972_2_alg».proof.Proof.Gen.KernelIdeal.Skeleton
import proofs.«153665_j63720134803972_2_alg».proof.Proof.Gen.KernelIdeal.Launch
import proofs.«153665_j63720134803972_2_alg».proof.Proof.Gen.KernelIdeal.Points
import proofs.«153665_j63720134803972_2_alg».proof.Proof.Gen.KernelIdeal.Frame
import proofs.«153665_j63720134803972_2_alg».proof.Proof.Gen.ReferenceIdeal
import proofs.«153665_j63720134803972_2_alg».proof.Proof.Gen.Pre_finite_inputs
import proofs.«153665_j63720134803972_2_alg».proof.Proof.Gen.ReferenceIdeal.Run
import proofs.«153665_j63720134803972_2_alg».proof.Proof.Gen.ReferenceIdeal.Read
import proofs.«153665_j63720134803972_2_alg».proof.Proof.Algebraic
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, Cert.Proof.Claims.algebraic⟩

end Cert.Proof

end
